-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S128x128 : Shape := ⟨2, ![128, 128]⟩
abbrev S128 : Shape := ⟨1, ![128]⟩
abbrev S500000 : Shape := ⟨1, ![500000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S500000x128 .f32) (main_arg1 : FVec F S500000x128 .f32) (main_arg2 : FVec F S128x128 .f32) (main_arg3 : FVec F S128 .f32) (main_arg4 : FVec F S128x128 .f32) (main_arg5 : FVec F S128 .f32) (main_arg6 : IVec S500000 1) (main_arg7 : IVec S500000 32) (main_arg8 : IVec S500000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S500000x128 .f32 := Host.absf main_arg1
  let main_cst_0 : FVec F S_ .f32 := constant S_ .f32 0x7F800000#32
  let main_v5 : FVec F S500000x128 .f32 := broadcastInDim S500000x128 ![] bcast_S_S500000x128 main_cst_0
  let main_v6 : IVec S500000x128 1 := cmpf .olt main_v4 main_v5
  let main_c_1 : IVec S_ 1 := constantI S_ 1 1#1
  let main_v7 : IVec S_ 1 := (fun x v => Host.reduce IntOp.andi x v reducesTo_S500000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S500000x128 : Shape := ⟨2, ![500000, 128]⟩
abbrev S128x128 : Shape := ⟨2, ![128, 128]⟩
abbrev S128 : Shape := ⟨1, ![128]⟩
abbrev S500000 : Shape := ⟨1, ![500000]⟩
abbrev S_ : Shape := ⟨0, ![]⟩
abbrev S500000x1 : Shape := ⟨2, ![500000, 1]⟩
abbrev S1x128 : Shape := ⟨2, ![1, 128]⟩
abbrev S10000x128 : Shape := ⟨2, ![10000, 128]⟩
abbrev S10000x1 : Shape := ⟨2, ![10000, 1]⟩

abbrev nBuf : Space → Nat
  | .hbm => 27
  | .vmem => 12
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S500000, .i1⟩
  | .hbm, ⟨7, _⟩ => ⟨S500000, .i32⟩
  | .hbm, ⟨8, _⟩ => ⟨S500000, .i32⟩
  | .hbm, ⟨9, _⟩ => ⟨S_, .i32⟩
  | .hbm, ⟨10, _⟩ => ⟨S500000, .i32⟩
  | .hbm, ⟨11, _⟩ => ⟨S500000, .i1⟩
  | .hbm, ⟨12, _⟩ => ⟨S_, .i32⟩
  | .hbm, ⟨13, _⟩ => ⟨S500000, .i32⟩
  | .hbm, ⟨14, _⟩ => ⟨S500000, .i32⟩
  | .hbm, ⟨15, _⟩ => ⟨S500000, .i32⟩
  | .hbm, ⟨16, _⟩ => ⟨S500000x1, .i32⟩
  | .hbm, ⟨17, _⟩ => ⟨S500000x128, .f32⟩
  | .hbm, ⟨18, _⟩ => ⟨S_, .f32⟩
  | .hbm, ⟨19, _⟩ => ⟨S500000x128, .f32⟩
  | .hbm, ⟨20, _⟩ => ⟨S500000x1, .i32⟩
  | .hbm, ⟨21, _⟩ => ⟨S500000x128, .f32⟩
  | .hbm, ⟨22, _⟩ => ⟨S500000, .f32⟩
  | .hbm, ⟨23, _⟩ => ⟨S500000x1, .f32⟩
  | .hbm, ⟨24, _⟩ => ⟨S1x128, .f32⟩
  | .hbm, ⟨25, _⟩ => ⟨S1x128, .f32⟩
  | .hbm, ⟨26, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S500000x128 : S_.BroadcastsInDim S500000x128 (![] : Fin 0 → Fin S500000x128.rank)
  shapeCasts_S500000_S500000x1 : S500000.ShapeCasts S500000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  broadcasts_S10000x1_S10000x128 : S10000x1.Broadcasts S10000x128
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S500000x128.size a
  hwx0_1 : ∀ i : grid0.Coords, EltTy.bits .f32 = 32 ∨ (Rect.block (s := S500000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S500000x1.size a
  hwx0_2 : ∀ i : grid0.Coords, EltTy.bits .f32 = 32 ∨ (Rect.block (s := S500000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S500000x128.size a
  hwx0_7 : ∀ i : grid0.Coords, EltTy.bits .f32 = 32 ∨ (Rect.block (s := S500000x128) S10000x128.size (cc0_transform_7 i) (hinb0_7 i)).WholeWords (EltTy.packing .f32)

variable [Facts₀]

def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S500000x128 : Shape := ⟨2, ![500000, 128]⟩
abbrev S128x128 : Shape := ⟨2, ![128, 128]⟩
abbrev S128 : Shape := ⟨1, ![128]⟩
abbrev S500000 : Shape := ⟨1, ![500000]⟩
abbrev S1x128 : Shape := ⟨2, ![1, 128]⟩
abbrev S500000x1 : Shape := ⟨2, ![500000, 1]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S500000, .i1⟩
  | .hbm, ⟨7, _⟩ => ⟨S500000, .i32⟩
  | .hbm, ⟨8, _⟩ => ⟨S500000, .i32⟩
  | .hbm, ⟨9, _⟩ => ⟨S500000x128, .f32⟩
  | .hbm, ⟨10, _⟩ => ⟨S1x128, .f32⟩
  | .hbm, ⟨11, _⟩ => ⟨S500000x128, .f32⟩
  | .hbm, ⟨12, _⟩ => ⟨S500000x128, .f32⟩
  | .hbm, ⟨13, _⟩ => ⟨S500000x1, .i1⟩
  | .hbm, ⟨14, _⟩ => ⟨S500000x1, .f32⟩
  | .hbm, ⟨15, _⟩ => ⟨S500000x128, .f32⟩
  | .hbm, ⟨16, _⟩ => ⟨S500000x128, .f32⟩
  | .hbm, ⟨17, _⟩ => ⟨S_, .i32⟩
  | .hbm, ⟨18, _⟩ => ⟨S500000, .i32⟩
  | .hbm, ⟨19, _⟩ => ⟨S500000, .i1⟩
  | .hbm, ⟨20, _⟩ => ⟨S_, .i32⟩
  | .hbm, ⟨21, _⟩ => ⟨S500000, .i32⟩
  | .hbm, ⟨22, _⟩ => ⟨S500000, .i32⟩
  | .hbm, ⟨23, _⟩ => ⟨S500000, .i32⟩
  | .hbm, ⟨24, _⟩ => ⟨S500000x1, .i32⟩
  | .hbm, ⟨25, _⟩ => ⟨S500000x128, .f32⟩
  | .hbm, ⟨26, _⟩ => ⟨S_, .f32⟩
  | .hbm, ⟨27, _⟩ => ⟨S500000x128, .f32⟩
  | .hbm, ⟨28, _⟩ => ⟨S500000x1, .i32⟩
  | .hbm, ⟨29, _⟩ => ⟨S500000x128, .f32⟩
  | .hbm, ⟨30, _⟩ => ⟨S500000x128, .f32⟩
  | .hbm, ⟨31, _⟩ => ⟨S1x128, .f32⟩
  | .hbm, ⟨32, _⟩ => ⟨S500000x128, .f32⟩
  | .hbm, ⟨33, _⟩ => ⟨S500000x128, .f32⟩
  | .hbm, ⟨34, _⟩ => ⟨S500000x128, .f32⟩
  | .hbm, ⟨35, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000 : S_.BroadcastsInDim S500000 (![] : Fin 0 → Fin S500000.rank)
  bcast_S_S500000x128 : S_.BroadcastsInDim S500000x128 (![] : Fin 0 → Fin S500000x128.rank)
  dot_S500000x128_S128x128_S500000x128_1_0_0_1_n_n_wf : DotDims.WF S500000x128 S128x128 S500000x128 [1] [0] [0] [1] [] []
  gather_S500000x128_S500000x1_S500000x128_1_0_n_n_0_1_1128_wf : GatherDims.WF S500000x128 S500000x1 S500000x128 [1] [0] [] [0] [] 1 ![1, 128]
  scatter_S500000x128_S500000x1_S500000x128_1_0_0_1_wf : ScatterDims.WF S500000x128 S500000x1 S500000x128 [1] [0] [0] 1

variable [Facts₀]

def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def gather_S500000x128_S500000x1_S500000x128_1_0_n_n_0_1_1128 : GatherDims S500000x128 S500000x1 S500000x128 where
  offsetDims := [1]
  collapsedSliceDims := [0]
  operandBatchingDims := []
  startIndicesBatchingDims := []
  startIndexMap := [0]
  indexVectorDim := 1
  sliceSizes := ![1, 128]
  wf := gather_S500000x128_S500000x1_S500000x128_1_0_n_n_0_1_1128_wf
def scatter_S500000x128_S500000x1_S500000x128_1_0_0_1 : ScatterDims S500000x128 S500000x1 S500000x128 where
  updateWindowDims := [1]
  insertedWindowDims := [0]
  scatterDimsToOperandDims := [0]
  indexVectorDim := 1
  wf := scatter_S500000x128_S500000x1_S500000x128_1_0_0_1_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«153714_j5557687681543_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«153714_j5557687681543_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibColumnVector.lean ====
/-
  A vector of r entries as the single column of an r×1 array, read at an index: the re-shaping [r]→[r,1] and a host
  program's broadcast of a vector down the rows of an r×1 array both give that column, and converting the entries of
  the column to floats is converting the entries of the vector. The companion of the single row of a 1×n array.
-/
import Idealize.ShloMosaic.PureOps.Ideal
import Idealize.ShloMosaic.Lib.ValueIdx
import Idealize.ShloMosaic.Lib.Pipeline.Value
import proofs.«153714_j5557687681543_1_alg».proof.Proof.LibRowReductions

namespace Cert.Lib.ColumnVector

open Idealize.ShloMosaic Idealize.ShloMosaic.ValueIdx

variable {α : Type} {r : Nat}

/-- A vector of r entries as the single column of an r×1 array: entry (p, 0) is entry p. -/
def asCol (x : (⟨1, ![r]⟩ : Shape).Idx → α) : (⟨2, ![r, 1]⟩ : Shape).Idx → α := fun i => x (ix1 (i 0))

theorem asCol_apply (x : (⟨1, ![r]⟩ : Shape).Idx → α) (p : Fin r) : asCol x (ix2 p 0) = x (ix1 p) := rfl

/-- Every index of an r×1 array is in column 0. -/
theorem idx_col (i : (⟨2, ![r, 1]⟩ : Shape).Idx) : i = ix2 (i 0) 0 := by
  funext d
  match d with
  | ⟨0, _⟩ => rfl
  | ⟨1, _⟩ =>
    have h : (i 1).val < 1 := (i 1).isLt
    exact Fin.ext (by show (i 1).val = 0; omega)

/-- The re-shaping [r]→[r,1] is `asCol`. -/
theorem shapeCast_eq_asCol (x : (⟨1, ![r]⟩ : Shape).Idx → α) (h : (⟨1, ![r]⟩ : Shape).ShapeCasts ⟨2, ![r, 1]⟩) :
    shapeCast ⟨2, ![r, 1]⟩ x h = asCol x := by
  funext i
  rw [idx_col i]
  exact Cert.Lib.RowReductions.shapeCast_col_apply x h (i 0)

/-- A host program's broadcast of a vector down the rows of an r×1 array is `asCol`. -/
theorem bcastInDim_eq_asCol (x : (⟨1, ![r]⟩ : Shape).Idx → α)
    (h : (⟨1, ![r]⟩ : Shape).BroadcastsInDim ⟨2, ![r, 1]⟩ ![0]) :
    broadcastInDim ⟨2, ![r, 1]⟩ ![0] h x = asCol x := by
  funext i
  rw [idx_col i]
  exact Cert.Lib.RowReductions.bcastInDim_col_apply x h (i 0)

/-- Converting the unsigned entries of a column to floats, on the extended reals, is converting the entries of the
    vector. -/
theorem uitofp_asCol {w : Nat} (x : IVec ⟨1, ![r]⟩ w) :
    uitofp (F := Ideal) .f32 (asCol x) = asCol (uitofp (F := Ideal) .f32 x) := rfl

end Cert.Lib.ColumnVector
-- ==== Proof.TreeCell.lean ====
/-
  One update of a tree-structured recurrent cell on the extended reals, as a function of whole arrays.

  For r nodes with k input features and n hidden units, given the node inputs X (r×k), the per-node sums A (r×k) of
  the hidden states that arrive along the edges, a column g (r×1) of per-node gates, two weight matrices W₁, W₂ (k×n)
  and two bias rows b₁, b₂ (1×n), the new hidden state of node p at unit q is

      tanh ( (∑ c, X(p, c) · W₁(c, q) + b₁(q)) · g(p)  +  (∑ c, A(p, c) · W₂(c, q) + b₂(q)) ),

  which is `cell`. Entry (p, q) depends on row p of X, row p of A and entry p of g only, so the cell applied to a
  block of rows gives the same rows of the cell applied to the whole arrays (`cell_at`). Two ways of writing the
  update equal it: with two matrix products into zero accumulators, the bias rows and the gate column broadcast
  beside them (`body_eq`), and with two dot products, the bias vectors broadcast to a row and then down the rows, the
  gate column across the columns (`host_eq`). Nothing is distributed or cancelled, so no entry need be finite. The
  sums A themselves — rows of the hidden states gathered along the edges and added into a zero array at the edges'
  destinations — are `edgeSum`, one function of the hidden states and the two index vectors.
-/
import Idealize.ShloMosaic.PureOps.Ideal.Laws
import Idealize.ShloMosaic.Lib.ValueIdx
import Idealize.ShloMosaic.Lib.Pipeline.Value
import proofs.«153714_j5557687681543_1_alg».proof.Proof.LibBlockReads
import proofs.«153714_j5557687681543_1_alg».proof.Proof.LibMatProd
import proofs.«153714_j5557687681543_1_alg».proof.Proof.LibRowReductions
import proofs.«153714_j5557687681543_1_alg».proof.Proof.LibRowVector
import proofs.«153714_j5557687681543_1_alg».proof.Proof.LibColumnVector

open scoped BigOperators

noncomputable section

namespace Cert.TreeCell

open Idealize.ShloMosaic Idealize.ShloMosaic.ValueIdx Cert.Lib.MatProd Cert.Lib.RowVector Cert.Lib.ColumnVector

/-! ## The cell -/

variable {r r' k n : Nat}

/-- The cell's new hidden states: entry (p, q) is
    tanh ((∑ c, X(p, c) · W₁(c, q) + b₁(0, q)) · g(p, 0) + (∑ c, A(p, c) · W₂(c, q) + b₂(0, q))). -/
def cell (X A : (⟨2, ![r, k]⟩ : Shape).Idx → EReal) (g : (⟨2, ![r, 1]⟩ : Shape).Idx → EReal)
    (W₁ : (⟨2, ![k, n]⟩ : Shape).Idx → EReal) (b₁ : (⟨2, ![1, n]⟩ : Shape).Idx → EReal)
    (W₂ : (⟨2, ![k, n]⟩ : Shape).Idx → EReal) (b₂ : (⟨2, ![1, n]⟩ : Shape).Idx → EReal) :
    (⟨2, ![r, n]⟩ : Shape).Idx → EReal :=
  fun i => Ideal.tanh
    ((matProd X W₁ i + b₁ (ix2 (0 : Fin 1) (⟨(i 1).val, idx2_lt1 i⟩ : Fin n)))
        * g (ix2 (⟨(i 0).val, idx2_lt0 i⟩ : Fin r) (0 : Fin 1))
      + (matProd A W₂ i + b₂ (ix2 (0 : Fin 1) (⟨(i 1).val, idx2_lt1 i⟩ : Fin n))))

theorem cell_apply (X A : (⟨2, ![r, k]⟩ : Shape).Idx → EReal) (g : (⟨2, ![r, 1]⟩ : Shape).Idx → EReal)
    (W₁ : (⟨2, ![k, n]⟩ : Shape).Idx → EReal) (b₁ : (⟨2, ![1, n]⟩ : Shape).Idx → EReal)
    (W₂ : (⟨2, ![k, n]⟩ : Shape).Idx → EReal) (b₂ : (⟨2, ![1, n]⟩ : Shape).Idx → EReal) (p : Fin r) (q : Fin n) :
    cell X A g W₁ b₁ W₂ b₂ (ix2 p q)
      = Ideal.tanh ((matProd X W₁ (ix2 p q) + b₁ (ix2 0 q)) * g (ix2 p 0) + (matProd A W₂ (ix2 p q) + b₂ (ix2 0 q))) :=
  rfl

/-- An entry of the cell depends on one row of X, one row of A and one entry of g: if row p of X', A', g' is row s of
    X, A, g, the cell of the primed arrays at (p, q) is the cell of the unprimed ones at (s, q). -/
theorem cell_rows (X A : (⟨2, ![r, k]⟩ : Shape).Idx → EReal) (X' A' : (⟨2, ![r', k]⟩ : Shape).Idx → EReal)
    (g : (⟨2, ![r, 1]⟩ : Shape).Idx → EReal) (g' : (⟨2, ![r', 1]⟩ : Shape).Idx → EReal)
    (W₁ : (⟨2, ![k, n]⟩ : Shape).Idx → EReal) (b₁ : (⟨2, ![1, n]⟩ : Shape).Idx → EReal)
    (W₂ : (⟨2, ![k, n]⟩ : Shape).Idx → EReal) (b₂ : (⟨2, ![1, n]⟩ : Shape).Idx → EReal)
    (p : Fin r') (s : Fin r) (q : Fin n)
    (hX : ∀ c : Fin k, X' (ix2 p c) = X (ix2 s c)) (hA : ∀ c : Fin k, A' (ix2 p c) = A (ix2 s c))
    (hg : g' (ix2 p 0) = g (ix2 s 0)) :
    cell X' A' g' W₁ b₁ W₂ b₂ (ix2 p q) = cell X A g W₁ b₁ W₂ b₂ (ix2 s q) := by
  rw [cell_apply, cell_apply, matProd_block X X' W₁ W₁ p q s q hX (fun _ => rfl),
    matProd_block A A' W₂ W₂ p q s q hA (fun _ => rfl), hg]

/-- The same with the index y inside the block of rows and the index i of the whole arrays as variables, and the
    weights and biases of the two sides equal by hypothesis. -/
theorem cell_at (X A : (⟨2, ![r, k]⟩ : Shape).Idx → EReal) (X' A' : (⟨2, ![r', k]⟩ : Shape).Idx → EReal)
    (g : (⟨2, ![r, 1]⟩ : Shape).Idx → EReal) (g' : (⟨2, ![r', 1]⟩ : Shape).Idx → EReal)
    (W₁ W₁' : (⟨2, ![k, n]⟩ : Shape).Idx → EReal) (b₁ b₁' : (⟨2, ![1, n]⟩ : Shape).Idx → EReal)
    (W₂ W₂' : (⟨2, ![k, n]⟩ : Shape).Idx → EReal) (b₂ b₂' : (⟨2, ![1, n]⟩ : Shape).Idx → EReal)
    (y : (⟨2, ![r', n]⟩ : Shape).Idx) (i : (⟨2, ![r, n]⟩ : Shape).Idx)
    (hX : ∀ c : Fin k, X' (ix2 (⟨(y 0).val, idx2_lt0 y⟩ : Fin r') c) = X (ix2 (⟨(i 0).val, idx2_lt0 i⟩ : Fin r) c))
    (hA : ∀ c : Fin k, A' (ix2 (⟨(y 0).val, idx2_lt0 y⟩ : Fin r') c) = A (ix2 (⟨(i 0).val, idx2_lt0 i⟩ : Fin r) c))
    (hg : g' (ix2 (⟨(y 0).val, idx2_lt0 y⟩ : Fin r') 0) = g (ix2 (⟨(i 0).val, idx2_lt0 i⟩ : Fin r) 0))
    (hW₁ : W₁' = W₁) (hb₁ : b₁' = b₁) (hW₂ : W₂' = W₂) (hb₂ : b₂' = b₂) (hcol : (y 1).val = (i 1).val) :
    cell X' A' g' W₁' b₁' W₂' b₂' y = cell X A g W₁ b₁ W₂ b₂ i := by
  subst hW₁ hb₁ hW₂ hb₂
  obtain ⟨p, q, rfl⟩ : ∃ (p : Fin r') (q : Fin n), y = ix2 p q := ⟨y 0, y 1, eq_ix2 y⟩
  obtain ⟨s, q', rfl⟩ : ∃ (s : Fin r) (q' : Fin n), i = ix2 s q' := ⟨i 0, i 1, eq_ix2 i⟩
  have hq : q = q' := Fin.ext hcol
  subst hq
  exact cell_rows X A X' A' g g' W₁' b₁' W₂' b₂' p s q hX hA hg

/-! ## The two spellings of the update -/

/-- A vector program's update of a block of rows: the product of the inputs with W₁ into zeros, the first bias row
    broadcast down the rows and added, the gate column broadcast across the columns and multiplied; the product of
    the summed hidden states with W₂ into zeros, the second bias row added; the two added; tanh. The re-shapings
    it applies to its operands keep their shapes. -/
theorem body_eq (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x a : FVec Ideal ⟨2, ![r, k]⟩ .f32) (g : FVec Ideal ⟨2, ![r, 1]⟩ .f32)
    (w₁ : FVec Ideal ⟨2, ![k, n]⟩ .f32) (c₁ : FVec Ideal ⟨2, ![1, n]⟩ .f32)
    (w₂ : FVec Ideal ⟨2, ![k, n]⟩ .f32) (c₂ : FVec Ideal ⟨2, ![1, n]⟩ .f32)
    (ha : (⟨2, ![r, k]⟩ : Shape).ShapeCasts ⟨2, ![r, k]⟩) (hg : (⟨2, ![r, 1]⟩ : Shape).ShapeCasts ⟨2, ![r, 1]⟩)
    (hc : (⟨2, ![1, n]⟩ : Shape).ShapeCasts ⟨2, ![1, n]⟩)
    (hrow : (⟨2, ![1, n]⟩ : Shape).Broadcasts ⟨2, ![r, n]⟩) (hcol : (⟨2, ![r, 1]⟩ : Shape).Broadcasts ⟨2, ![r, n]⟩) :
    Idealize.ShloMosaic.tanh (addf
      (mulf
        (addf (matmul d none x w₁ (constant ⟨2, ![r, n]⟩ .f32 0x00000000#32))
          (broadcastTo ⟨2, ![r, n]⟩ (shapeCast ⟨2, ![1, n]⟩ c₁ hc) hrow))
        (broadcastTo ⟨2, ![r, n]⟩ (shapeCast ⟨2, ![r, 1]⟩ g hg) hcol))
      (addf (matmul d none (shapeCast ⟨2, ![r, k]⟩ a ha) w₂ (constant ⟨2, ![r, n]⟩ .f32 0x00000000#32))
        (broadcastTo ⟨2, ![r, n]⟩ (shapeCast ⟨2, ![1, n]⟩ c₂ hc) hrow)))
    = cell x a g w₁ c₁ w₂ c₂ := by
  rw [shapeCast_self c₁ hc, shapeCast_self g hg, shapeCast_self a ha, shapeCast_self c₂ hc,
    matmul_zero_eq_matProd d hlc hrc hln hrn hlb hrb none x w₁, matmul_zero_eq_matProd d hlc hrc hln hrn hlb hrb none a w₂]
  funext i
  obtain ⟨p, q, rfl⟩ : ∃ (p : Fin r) (q : Fin n), i = ix2 p q := ⟨i 0, i 1, eq_ix2 i⟩
  show Ideal.tanh
      ((matProd x w₁ (ix2 p q) + broadcastTo ⟨2, ![r, n]⟩ c₁ hrow (ix2 p q)) * broadcastTo ⟨2, ![r, n]⟩ g hcol (ix2 p q)
        + (matProd a w₂ (ix2 p q) + broadcastTo ⟨2, ![r, n]⟩ c₂ hrow (ix2 p q))) = _
  rw [Cert.Lib.BlockReads.broadcast_row_apply c₁ hrow p q, Cert.Lib.BlockReads.broadcast_row_apply c₂ hrow p q,
    Cert.Lib.RowReductions.broadcast_col_apply g hcol p q]
  rfl

/-- A host program's update of the whole arrays: the dot product of the inputs with W₁, the first bias vector
    broadcast to a 1×n row and that down the rows, added; the gate column broadcast across the columns, multiplied;
    the dot product of the summed hidden states with W₂, the second bias likewise, added; the two added; tanh. -/
theorem host_eq (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (x a : FVec Ideal ⟨2, ![r, k]⟩ .f32) (g : FVec Ideal ⟨2, ![r, 1]⟩ .f32)
    (w₁ : FVec Ideal ⟨2, ![k, n]⟩ .f32) (v₁ : FVec Ideal ⟨1, ![n]⟩ .f32)
    (w₂ : FVec Ideal ⟨2, ![k, n]⟩ .f32) (v₂ : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨2, ![r, 1]⟩ : Shape).BroadcastsInDim ⟨2, ![r, n]⟩ ![0, 1]) :
    Host.tanh (addf
      (mulf
        (addf (Host.dotGeneral d none x w₁)
          (broadcastInDim ⟨2, ![r, n]⟩ ![0, 1] h2 (broadcastInDim ⟨2, ![1, n]⟩ ![1] h1 v₁)))
        (broadcastInDim ⟨2, ![r, n]⟩ ![0, 1] h3 g))
      (addf (Host.dotGeneral d none a w₂)
        (broadcastInDim ⟨2, ![r, n]⟩ ![0, 1] h2 (broadcastInDim ⟨2, ![1, n]⟩ ![1] h1 v₂))))
    = cell x a g w₁ (asRow v₁) w₂ (asRow v₂) := by
  have e₁ : Host.dotGeneral d none x w₁ = matProd x w₁ := dotGeneral_eq_matProd d hlc hrc hln hrn hlb hrb none .single x w₁
  have e₂ : Host.dotGeneral d none a w₂ = matProd a w₂ := dotGeneral_eq_matProd d hlc hrc hln hrn hlb hrb none .single a w₂
  rw [e₁, e₂, bcastInDim_eq_asRow v₁ h1, bcastInDim_eq_asRow v₂ h1]
  funext i
  obtain ⟨p, q, rfl⟩ : ∃ (p : Fin r) (q : Fin n), i = ix2 p q := ⟨i 0, i 1, eq_ix2 i⟩
  show Ideal.tanh
      ((matProd x w₁ (ix2 p q) + broadcastInDim ⟨2, ![r, n]⟩ ![0, 1] h2 (asRow v₁) (ix2 p q))
          * broadcastInDim ⟨2, ![r, n]⟩ ![0, 1] h3 g (ix2 p q)
        + (matProd a w₂ (ix2 p q) + broadcastInDim ⟨2, ![r, n]⟩ ![0, 1] h2 (asRow v₂) (ix2 p q))) = _
  rw [bcastInDim_rows_apply (asRow v₁) h2 p q, bcastInDim_rows_apply (asRow v₂) h2 p q,
    Cert.Lib.RowReductions.bcastInDim_cols_apply g h3 p q]
  rfl

/-! ## The sums of the hidden states along the edges -/

section Edges
variable {N H E : Nat}

/-- The hidden states summed along the edges: for every edge e, row src(e) of the hidden states (a negative index
    counted from the end, by adding `wrap`) is added into row dst(e) of an array of zeros — a gather followed by a
    scatter-add, as one function of the hidden states and the two index vectors. -/
def edgeSum (gd : GatherDims ⟨2, ![N, H]⟩ ⟨2, ![E, 1]⟩ ⟨2, ![E, H]⟩) (sd : ScatterDims ⟨2, ![N, H]⟩ ⟨2, ![E, 1]⟩ ⟨2, ![E, H]⟩)
    (hz : (⟨0, ![]⟩ : Shape).BroadcastsInDim ⟨2, ![N, H]⟩ ![]) (hs : (⟨0, ![]⟩ : Shape).BroadcastsInDim ⟨1, ![E]⟩ ![])
    (hc : (⟨1, ![E]⟩ : Shape).BroadcastsInDim ⟨2, ![E, 1]⟩ ![0]) (wrap : BitVec 32)
    (h : FVec Ideal ⟨2, ![N, H]⟩ .f32) (src dst : IVec ⟨1, ![E]⟩ 32) : FVec Ideal ⟨2, ![N, H]⟩ .f32 :=
  Host.scatterAdd sd (broadcastInDim ⟨2, ![N, H]⟩ ![] hz (constant (F := Ideal) ⟨0, ![]⟩ .f32 0x00000000#32))
    (broadcastInDim ⟨2, ![E, 1]⟩ ![0] hc dst)
    (Host.gather gd h (broadcastInDim ⟨2, ![E, 1]⟩ ![0] hc
      (select (cmpi .slt src (broadcastInDim ⟨1, ![E]⟩ ![] hs (constantI ⟨0, ![]⟩ 32 0#32)))
        (addi src (broadcastInDim ⟨1, ![E]⟩ ![] hs (constantI ⟨0, ![]⟩ 32 wrap))) src)))

end Edges

end Cert.TreeCell

end
-- ==== Proof.KernelBody.lean ====
/-
  What the kernel's body stores, on the extended reals: the cell of the blocks it loads.

  At a grid point the body loads a block of 10000 rows of the node inputs, the same rows of the summed hidden states
  and of the gate column, and the two 128×128 weight matrices and two 1×128 bias rows whole; the value it stores
  for its block of the output is `Cert.TreeCell.cell` of those seven arrays.
-/
import proofs.«153714_j5557687681543_1_alg».proof.Proof.Gen.KernelIdeal.Skeleton
import proofs.«153714_j5557687681543_1_alg».proof.Proof.TreeCell

noncomputable section

namespace Cert.KernelIdeal.Hand

open Cert.KernelIdeal Cert.KernelIdeal.Gen Idealize.ShloMosaic Cert.TreeCell

/-- The stored value is the cell of the loaded blocks: rows of inputs `v0`, rows of summed hidden states `v1`, gate
    entries `v3`, weights `v5`, `v13` and bias rows `v7`, `v15`. -/
theorem pay_eq (v0 v1 : Vec Ideal S10000x128 .f32) (v3 : Vec Ideal S10000x1 .f32) (v5 : Vec Ideal S128x128 .f32)
    (v7 : Vec Ideal S1x128 .f32) (v13 : Vec Ideal S128x128 .f32) (v15 : Vec Ideal S1x128 .f32) :
    k0_pay1 (F := Ideal) v0 v1 v3 v5 v7 v13 v15 = cell v0 v1 v3 v5 v7 v13 v15 := by
  unfold k0_pay1
  exact body_eq dot_S10000x128_S128x128_S10000x128_1_0_0_1_n_n rfl rfl rfl rfl rfl rfl v0 v1 v3 v5 v7 v13 v15
    shapeCasts_S10000x128_S10000x128 shapeCasts_S10000x1_S10000x1 shapeCasts_S1x128_S1x128
    broadcasts_S1x128_S10000x128 broadcasts_S10000x1_S10000x128

end Cert.KernelIdeal.Hand

end
-- ==== Proof.KernelValue.lean ====
/-
  What the kernel's result array holds after the run, on the extended reals: the cell of the whole arrays.

  The grid has 50 points; point t works on rows 10000·t … 10000·t + 9999. Its block of the node inputs, of the
  summed hidden states and of the gate column are those rows of the three arrays, the weights and bias rows are
  whole at every point, and the block it writes back is those rows of the result. The body stores the cell of its
  blocks, and an entry of the cell depends on one row only, so the block written back at point t is rows
  10000·t … 10000·t + 9999 of the cell of the WHOLE arrays; the 50 blocks tile the 500000 rows, so the result array
  ends holding that cell. Three of the arrays the points read are written by the host before the launch: the sums of
  the hidden states along the edges, the mask converted to zeros and ones and re-shaped to a column, and each bias
  vector re-shaped to a row.
-/
import proofs.«153714_j5557687681543_1_alg».proof.Proof.Gen.KernelIdeal.Value
import proofs.«153714_j5557687681543_1_alg».proof.Proof.KernelBody
import proofs.«153714_j5557687681543_1_alg».proof.Proof.TreeCell
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.TreeCell Cert.Lib.RowVector Cert.Lib.ColumnVector
open Idealize.ShloMosaic.ValueIdx

variable (m : (ℓ : Loc nD τ sig) → Buf (Elt Ideal) ℓ) (ρ : Dev nD → PrngReg)

/-- The hidden states `h` summed along the edges `src → dst`, with the kernel program's dimension records. -/
abbrev agg (h : FVec Ideal S500000x128 .f32) (src dst : IVec S500000 32) : FVec Ideal S500000x128 .f32 :=
  edgeSum gather_S500000x128_S500000x1_S500000x128_1_0_n_n_0_1_1128 scatter_S500000x128_S500000x1_S500000x128_1_0_0_1
    bcast_S_S500000x128 bcast_S_S500000 bcast_S500000_S500000x1_0 500000#32 h src dst

/-- The result as one function of the arguments: the cell of the node inputs, the edge sums of the hidden states,
    the mask as a column of zeros and ones, the weights, and the biases as rows. -/
def result (c : Dev nD) : Buf (Elt Ideal) ((c : Thread nD τ).loc main_v14) :=
  cell (m ((c : Thread nD τ).loc main_arg0)) (agg (m ((c : Thread nD τ).loc main_arg1)) (m ((c : Thread nD τ).loc main_arg7)) (m ((c : Thread nD τ).loc main_arg8)))
    (asCol (uitofp (F := Ideal) .f32 (m ((c : Thread nD τ).loc main_arg6)))) (m ((c : Thread nD τ).loc main_arg2)) (asRow (m ((c : Thread nD τ).loc main_arg3)))
    (m ((c : Thread nD τ).loc main_arg4)) (asRow (m ((c : Thread nD τ).loc main_arg5)))

/-! ## The arrays the host writes before the launch -/

/-- The launch finds the edge sums of the hidden states in the second operand's array. -/
theorem V_agg (c : Dev nD) : (V m c main_v9 : S500000x128.Idx → EReal)
    = agg (m ((c : Thread nD τ).loc main_arg1)) (m ((c : Thread nD τ).loc main_arg7)) (m ((c : Thread nD τ).loc main_arg8)) := by
  dsimp only [Gen.V, Gen.hostOps0]
  after_results
  rfl

/-- The launch finds the mask, as zeros and ones, down the single column of the third operand's array. -/
theorem V_gate (c : Dev nD) : (V m c main_v11 : S500000x1.Idx → EReal)
    = asCol (uitofp (F := Ideal) .f32 (m ((c : Thread nD τ).loc main_arg6))) := by
  have e : (V m c main_v11 : S500000x1.Idx → EReal)
      = shapeCast S500000x1 (uitofp (F := Ideal) .f32 (m ((c : Thread nD τ).loc main_arg6))) shapeCasts_S500000_S500000x1 := by
    dsimp only [Gen.V, Gen.hostOps0]
    after_results
    rfl
  rw [e, shapeCast_eq_asCol]

/-- The launch finds the first bias vector along the single row of the fifth operand's array. -/
theorem V_bias_in (c : Dev nD) : (V m c main_v12 : S1x128.Idx → EReal) = asRow (m ((c : Thread nD τ).loc main_arg3)) := by
  have e : (V m c main_v12 : S1x128.Idx → EReal) = shapeCast S1x128 (m ((c : Thread nD τ).loc main_arg3)) shapeCasts_S128_S1x128 := by
    dsimp only [Gen.V, Gen.hostOps0]
    after_results
    rfl
  rw [e, shapeCast_eq_asRow]

/-- The launch finds the second bias vector along the single row of the seventh operand's array. -/
theorem V_bias_aggr (c : Dev nD) : (V m c main_v13 : S1x128.Idx → EReal) = asRow (m ((c : Thread nD τ).loc main_arg5)) := by
  have e : (V m c main_v13 : S1x128.Idx → EReal) = shapeCast S1x128 (m ((c : Thread nD τ).loc main_arg5)) shapeCasts_S128_S1x128 := by
    dsimp only [Gen.V, Gen.hostOps0]
    after_results
    rfl
  rw [e, shapeCast_eq_asRow]

/-! ## Where each window's block sits at a grid point -/

theorem hz : (![0, 0] : Fin 2 → Nat) = fun _ => 0 := funext fun a => by fin_cases a <;> rfl

/-- The block indices over the 50 points: the three row-blocked inputs and the output are at block row t, column
    block 0; the weights and bias rows are at block (0, 0) throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## What point t writes back -/

/-- Point t writes back rows 10000·t … 10000·t + 9999 of `result`. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S10000x128) hz, View.ld_unit_zero (S := S10000x1) hz,
    View.ld_unit_zero (S := S128x128) hz, View.ld_unit_zero (S := S1x128) hz]
  obtain ⟨e00, e01, e10, e11, e20, e21, e30, e31, e40, e41, e50, e51, e60, e61, e70, e71⟩ := idx_facts t
  refine funext fun (y : S10000x128.Idx) => ?_
  show k0_pay1 (F := Ideal) (iblk m c 0 t) (iblk m c 1 t) (iblk m c 2 t) (iblk m c 3 t) (iblk m c 4 t) (iblk m c 5 t) (iblk m c 6 t) y
    = result m c (((cfg0.win 7).blk t).view.emb y)
  refine (congrFun (pay_eq (iblk m c 0 t) (iblk m c 1 t) (iblk m c 2 t) (iblk m c 3 t) (iblk m c 4 t) (iblk m c 5 t) (iblk m c 6 t)) y).trans ?_
  unfold result
  refine cell_at (r := 500000) (r' := 10000) (k := 128) (n := 128)
    (m ((c : Thread nD τ).loc main_arg0)) (agg (m ((c : Thread nD τ).loc main_arg1)) (m ((c : Thread nD τ).loc main_arg7)) (m ((c : Thread nD τ).loc main_arg8)))
    (iblk m c 0 t) (iblk m c 1 t)
    (asCol (uitofp (F := Ideal) .f32 (m ((c : Thread nD τ).loc main_arg6)))) (iblk m c 2 t)
    (m ((c : Thread nD τ).loc main_arg2)) (iblk m c 3 t) (asRow (m ((c : Thread nD τ).loc main_arg3))) (iblk m c 4 t)
    (m ((c : Thread nD τ).loc main_arg4)) (iblk m c 5 t) (asRow (m ((c : Thread nD τ).loc main_arg5))) (iblk m c 6 t)
    y (((cfg0.win 7).blk t).view.emb y) ?_ ?_ ?_ ?_ ?_ ?_ ?_ ?_
  · -- the rows of the node inputs
    intro cc
    show V m c main_arg0 (((cfg0.win 0).blk t).view.emb (ix2 (⟨(y 0).val, idx2_lt0 y⟩ : Fin 10000) cc)) = _
    rw [V_main_arg0]
    refine congrArg _ ?_
    funext a; apply Fin.ext
    match a with
    | ⟨0, _⟩ => show win0_0.index t (0 : Fin 2) * 10000 + 1 * (y 0).val = win0_7.index t (0 : Fin 2) * 10000 + 1 * (y 0).val; omega
    | ⟨1, _⟩ => show win0_0.index t (1 : Fin 2) * 128 + 1 * cc.val = cc.val; omega
  · -- the rows of the summed hidden states
    intro cc
    show V m c main_v9 (((cfg0.win 1).blk t).view.emb (ix2 (⟨(y 0).val, idx2_lt0 y⟩ : Fin 10000) cc)) = _
    rw [V_agg]
    refine congrArg _ ?_
    funext a; apply Fin.ext
    match a with
    | ⟨0, _⟩ => show win0_1.index t (0 : Fin 2) * 10000 + 1 * (y 0).val = win0_7.index t (0 : Fin 2) * 10000 + 1 * (y 0).val; omega
    | ⟨1, _⟩ => show win0_1.index t (1 : Fin 2) * 128 + 1 * cc.val = cc.val; omega
  · -- the entries of the gate column
    show V m c main_v11 (((cfg0.win 2).blk t).view.emb (ix2 (⟨(y 0).val, idx2_lt0 y⟩ : Fin 10000) (0 : Fin 1))) = _
    rw [V_gate]
    refine congrArg _ ?_
    funext a; apply Fin.ext
    match a with
    | ⟨0, _⟩ => show win0_2.index t (0 : Fin 2) * 10000 + 1 * (y 0).val = win0_7.index t (0 : Fin 2) * 10000 + 1 * (y 0).val; omega
    | ⟨1, _⟩ => show win0_2.index t (1 : Fin 2) * 1 + 1 * 0 = 0; omega
  · -- the first weight matrix, whole
    refine funext fun (j : S128x128.Idx) => ?_
    show V m c main_arg2 (((cfg0.win 3).blk t).view.emb j) = _
    rw [V_main_arg2]
    refine congrArg _ ?_
    funext a; apply Fin.ext
    match a with
    | ⟨0, _⟩ => show win0_3.index t (0 : Fin 2) * 128 + 1 * (j 0).val = (j 0).val; omega
    | ⟨1, _⟩ => show win0_3.index t (1 : Fin 2) * 128 + 1 * (j 1).val = (j 1).val; omega
  · -- the first bias row, whole
    refine funext fun (j : S1x128.Idx) => ?_
    show V m c main_v12 (((cfg0.win 4).blk t).view.emb j) = _
    rw [V_bias_in]
    refine congrArg _ ?_
    funext a; apply Fin.ext
    match a with
    | ⟨0, _⟩ => show win0_4.index t (0 : Fin 2) * 1 + 1 * (j 0).val = (j 0).val; omega
    | ⟨1, _⟩ => show win0_4.index t (1 : Fin 2) * 128 + 1 * (j 1).val = (j 1).val; omega
  · -- the second weight matrix, whole
    refine funext fun (j : S128x128.Idx) => ?_
    show V m c main_arg4 (((cfg0.win 5).blk t).view.emb j) = _
    rw [V_main_arg4]
    refine congrArg _ ?_
    funext a; apply Fin.ext
    match a with
    | ⟨0, _⟩ => show win0_5.index t (0 : Fin 2) * 128 + 1 * (j 0).val = (j 0).val; omega
    | ⟨1, _⟩ => show win0_5.index t (1 : Fin 2) * 128 + 1 * (j 1).val = (j 1).val; omega
  · -- the second bias row, whole
    refine funext fun (j : S1x128.Idx) => ?_
    show V m c main_v13 (((cfg0.win 6).blk t).view.emb j) = _
    rw [V_bias_aggr]
    refine congrArg _ ?_
    funext a; apply Fin.ext
    match a with
    | ⟨0, _⟩ => show win0_6.index t (0 : Fin 2) * 1 + 1 * (j 0).val = (j 0).val; omega
    | ⟨1, _⟩ => show win0_6.index t (1 : Fin 2) * 128 + 1 * (j 1).val = (j 1).val; omega
  · -- the column is kept
    show (y 1).val = win0_7.index t (1 : Fin 2) * 128 + 1 * (y 1).val
    omega

/-! ## The 50 blocks tile the result array -/

/-- An index of the result array is in point t's block iff each coordinate is in the block's range on its axis. -/
theorem mem_blk (t : Fin cfg0.N) (i : S500000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v14).slice (win0_7.rect t)).set ↔ _
  rw [View.set_slice_whole, Rect.mem_set_unit]
  exact Iff.rfl

/-- Row p of the result array is in the block of point p / 10000. -/
theorem cover (i : S500000x128.Idx) :
    ∃ t : Fin cfg0.N, (cfg0.win 7).flush t = true ∧ i ∈ ((cfg0.win 7).blk t).view.set := by
  have hi0 : (i 0).val < 500000 := (i 0).isLt
  have hi1 : (i 1).val < 128 := (i 1).isLt
  have hN : cfg0.N = 50 := N_0
  have ht : (i 0).val / 10000 < cfg0.N := by rw [hN]; omega
  obtain ⟨-, -, -, -, -, -, -, -, -, -, -, -, -, -, e70, e71⟩ := idx_facts ⟨(i 0).val / 10000, ht⟩
  refine ⟨⟨(i 0).val / 10000, ht⟩, flush0_7 _, ?_⟩
  rw [mem_blk]
  intro a
  match a with
  | ⟨0, _⟩ =>
    show win0_7.index ⟨(i 0).val / 10000, ht⟩ (0 : Fin 2) * 10000 ≤ (i 0).val
      ∧ (i 0).val < win0_7.index ⟨(i 0).val / 10000, ht⟩ (0 : Fin 2) * 10000 + 10000
    rw [e70]
    show (i 0).val / 10000 * 10000 ≤ (i 0).val ∧ (i 0).val < (i 0).val / 10000 * 10000 + 10000
    omega
  | ⟨1, _⟩ =>
    show win0_7.index ⟨(i 0).val / 10000, ht⟩ (1 : Fin 2) * 128 ≤ (i 1).val
      ∧ (i 1).val < win0_7.index ⟨(i 0).val / 10000, ht⟩ (1 : Fin 2) * 128 + 128
    rw [e71]
    omega

/-- So the result array ends holding `result`. -/
theorem final (c : Dev nD) : (dats m 0 c).arrAt 7 cfg0.N = result m c :=
  (dats m 0 c).arrAt_eq_of_cover 7 (result m c) (fun t _ => flushed_eq m c t) cover

/-! ## The run -/

/-- Every weakly fair execution of the kernel's program terminates with the result array at `result` and the
    arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (Value.run_blocks m ρ)

end Cert.KernelIdeal.Hand

end
-- ==== Proof.RefValue.lean ====
/-
  What the reference computes, on the extended reals: the cell of the whole arrays.

  The reference's result is tanh ((x·W_in + b_in) · mask + (agg·W_aggr + b_aggr)) with agg the hidden states summed
  along the edges, the mask turned into a column of zeros and ones, and each bias vector laid along a row: it is
  `Cert.TreeCell.cell` of the node inputs, the edge sums, the gate column, the two weight matrices and the two bias
  rows.
-/
import proofs.«153714_j5557687681543_1_alg».proof.Proof.Gen.ReferenceIdeal
import proofs.«153714_j5557687681543_1_alg».proof.Proof.TreeCell

noncomputable section

namespace Cert.ReferenceIdeal.RefValue

open Cert.ReferenceIdeal Cert.ReferenceIdeal.Gen Idealize.ShloMosaic Cert.TreeCell Cert.Lib.RowVector Cert.Lib.ColumnVector

/-- The hidden states `h` summed along the edges `src → dst`, with the reference's dimension records. -/
abbrev agg (h : FVec Ideal S500000x128 .f32) (src dst : IVec S500000 32) : FVec Ideal S500000x128 .f32 :=
  edgeSum gather_S500000x128_S500000x1_S500000x128_1_0_n_n_0_1_1128 scatter_S500000x128_S500000x1_S500000x128_1_0_0_1
    bcast_S_S500000x128 bcast_S_S500000 bcast_S500000_S500000x1_0 500000#32 h src dst

/-- The reference's result term is the cell of the node inputs `x0`, the edge sums of the hidden states `x1` along
    `x7 → x8`, the column of the mask `x6` as zeros and ones, the weights `x2`, `x4` and the biases `x3`, `x5` as rows. -/
theorem result_eq (x0 x1 : FVec Ideal S500000x128 .f32) (x2 : FVec Ideal S128x128 .f32) (x3 : FVec Ideal S128 .f32)
    (x4 : FVec Ideal S128x128 .f32) (x5 : FVec Ideal S128 .f32) (x6 : IVec S500000 1) (x7 x8 : IVec S500000 32) :
    Host.tanh (addf (mulf (addf (Host.dotGeneral dot_S500000x128_S128x128_S500000x128_1_0_0_1_n_n none x0 x2) (broadcastInDim S500000x128 ![0, 1] bcast_S1x128_S500000x128_0_1 (broadcastInDim S1x128 ![1] bcast_S128_S1x128_1 x3))) (broadcastInDim S500000x128 ![0, 1] bcast_S500000x1_S500000x128_0_1 (uitofp (F := Ideal) .f32 (broadcastInDim S500000x1 ![0] bcast_S500000_S500000x1_0 x6)))) (addf (Host.dotGeneral dot_S500000x128_S128x128_S500000x128_1_0_0_1_n_n none (Host.scatterAdd scatter_S500000x128_S500000x1_S500000x128_1_0_0_1 (broadcastInDim S500000x128 ![] bcast_S_S500000x128 (constant (F := Ideal) S_ .f32 0x00000000#32)) (broadcastInDim S500000x1 ![0] bcast_S500000_S500000x1_0 x8) (Host.gather gather_S500000x128_S500000x1_S500000x128_1_0_n_n_0_1_1128 x1 (broadcastInDim S500000x1 ![0] bcast_S500000_S500000x1_0 (select (cmpi .slt x7 (broadcastInDim S500000 ![] bcast_S_S500000 (constantI S_ 32 0#32))) (addi x7 (broadcastInDim S500000 ![] bcast_S_S500000 (constantI S_ 32 500000#32))) x7)))) x4) (broadcastInDim S500000x128 ![0, 1] bcast_S1x128_S500000x128_0_1 (broadcastInDim S1x128 ![1] bcast_S128_S1x128_1 x5))))
    = cell x0 (agg x1 x7 x8) (asCol (uitofp (F := Ideal) .f32 x6)) x2 (asRow x3) x4 (asRow x5) := by
  rw [bcastInDim_eq_asCol x6 bcast_S500000_S500000x1_0, uitofp_asCol x6]
  exact host_eq dot_S500000x128_S128x128_S500000x128_1_0_0_1_n_n rfl rfl rfl rfl rfl rfl x0 (agg x1 x7 x8) (asCol (uitofp (F := Ideal) .f32 x6)) x2 x3 x4 x5
    bcast_S128_S1x128_1 bcast_S1x128_S500000x128_0_1 bcast_S500000x1_S500000x128_0_1

end Cert.ReferenceIdeal.RefValue

end
-- ==== Proof.lean ====
/-
  A tree-structured recurrent cell over 500000 nodes and 500000 edges with 128 features: the kernel's program and
  its reference compute the same new hidden states on the extended reals.

  Both programs first sum the hidden states along the edges on the host — row src(e) of `h` is added into row dst(e)
  of a zero array, for every edge e — with the same gather and scatter-add on the same arrays. The reference then
  forms tanh ((x·W_in + b_in) · mask + (agg·W_aggr + b_aggr)) over the whole arrays; the kernel does the same in 50
  blocks of 10000 rows, the mask as a column of zeros and ones and each bias as a row beside the block. An entry of
  the result depends on one row of x, one row of agg and one entry of the mask, so block t of the kernel's result is
  rows 10000·t … 10000·t + 9999 of the reference's, and the blocks tile the rows. The two matrix products are the same
  sums over the contracted coordinate, the operations are applied in the same order on both sides, and nothing is
  distributed or cancelled: the equality holds at every extended-real input, infinite ones included.

  The pieces: `Cert.TreeCell.cell` is the update as one function of whole arrays (Proof/TreeCell.lean);
  `Cert.KernelIdeal.Hand.run` says the kernel's result array ends holding it (Proof/KernelBody.lean: what a block's
  body stores; Proof/KernelValue.lean: the blocks and their cover); `Cert.ReferenceIdeal.RefValue.result_eq` says the
  reference's result is it (Proof/RefValue.lean). The idealized kernel is the kernel's own text read on the extended
  reals, so there is nothing to preserve.
-/
import proofs.«153714_j5557687681543_1_alg».proof.Defs
import proofs.«153714_j5557687681543_1_alg».proof.Proof.Gen.Kernel
import proofs.«153714_j5557687681543_1_alg».proof.Proof.Gen.Kernel.Skeleton
import proofs.«153714_j5557687681543_1_alg».proof.Proof.Gen.Kernel.Launch
import proofs.«153714_j5557687681543_1_alg».proof.Proof.Gen.Kernel.Points
import proofs.«153714_j5557687681543_1_alg».proof.Proof.Gen.Kernel.Frame
import proofs.«153714_j5557687681543_1_alg».proof.Proof.Gen.KernelIdeal
import proofs.«153714_j5557687681543_1_alg».proof.Proof.Gen.KernelIdeal.Skeleton
import proofs.«153714_j5557687681543_1_alg».proof.Proof.Gen.KernelIdeal.Launch
import proofs.«153714_j5557687681543_1_alg».proof.Proof.Gen.KernelIdeal.Points
import proofs.«153714_j5557687681543_1_alg».proof.Proof.Gen.KernelIdeal.Frame
import proofs.«153714_j5557687681543_1_alg».proof.Proof.Gen.ReferenceIdeal
import proofs.«153714_j5557687681543_1_alg».proof.Proof.Gen.Pre_finite_inputs
import proofs.«153714_j5557687681543_1_alg».proof.Proof.Gen.KernelIdeal.Value
import proofs.«153714_j5557687681543_1_alg».proof.Proof.Gen.ReferenceIdeal.Run
import proofs.«153714_j5557687681543_1_alg».proof.Proof.KernelValue
import proofs.«153714_j5557687681543_1_alg».proof.Proof.RefValue
import Idealize.ShloMosaic.Adequacy
import Idealize.ShloMosaic.Init

noncomputable section

namespace Cert.Proof

open Idealize.ShloMosaic Idealize.SL.Sem Cert.Kernel

/-- The two programs sum the hidden states along the edges with the same gather and the same scatter-add: their
    dimension records have the same entries. -/
theorem agg_eq : @Cert.ReferenceIdeal.RefValue.agg = @Cert.KernelIdeal.Hand.agg := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its run to its result, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the nine arguments both programs end with the result array at the cell of the
    whole arrays. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [a0, a1, a2, a3, a4, a5, a6, a7, a8]
  refine (Cert.ReferenceIdeal.RefValue.result_eq _ _ _ _ _ _ _ _ _).trans ?_
  unfold Cert.KernelIdeal.Hand.result
  rw [agg_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
